-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x64 : Shape := ⟨3, ![4, 50000, 64]⟩
abbrev S64x64 : Shape := ⟨2, ![64, 64]⟩
abbrev S850000 : Shape := ⟨1, ![850000]⟩
abbrev S_ : Shape := ⟨0, ![]⟩

class Facts : Prop where
  bcast_S_S4x50000x64 : S_.BroadcastsInDim S4x50000x64 (![] : Fin 0 → Fin S4x50000x64.rank)
  reducesTo_S4x50000x64_S_d0_1_2 : S4x50000x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S850000 : S_.BroadcastsInDim S850000 (![] : Fin 0 → Fin S850000.rank)
  reducesTo_S850000_S_d0 : S850000.ReducesTo [0] S_

variable [Facts]

def fn {F : FTy → Type} [FloatOps F] (main_arg0 : FVec F S4x50000x64 .f32) (main_arg1 : FVec F S64x64 .f32) (main_arg2 : IVec S850000 32) (main_arg3 : IVec S850000 32) (main_arg4 : FVec F S850000 .f32) : IVec S_ 1 :=
  let main_v0 : FVec F S4x50000x64 .f32 := Host.absf main_arg0
  let main_cst : FVec F S_ .f32 := constant S_ .f32 0x7F800000#32
  let main_v1 : FVec F S4x50000x64 .f32 := broadcastInDim S4x50000x64 ![] bcast_S_S4x50000x64 main_cst
  let main_v2 : IVec S4x50000x64 1 := cmpf .olt main_v0 main_v1
  let main_c : IVec S_ 1 := constantI S_ 1 1#1
  let main_v3 : IVec S_ 1 := (fun x v => Host.reduce IntOp.andi x v reducesTo_S4x50000x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S850000 .f32 := Host.absf main_arg4
  let main_cst_2 : FVec F S_ .f32 := constant S_ .f32 0x7F800000#32
  let main_v10 : FVec F S850000 .f32 := broadcastInDim S850000 ![] bcast_S_S850000 main_cst_2
  let main_v11 : IVec S850000 1 := cmpf .olt main_v9 main_v10
  let main_c_3 : IVec S_ 1 := constantI S_ 1 1#1
  let main_v12 : IVec S_ 1 := (fun x v => Host.reduce IntOp.andi x v reducesTo_S850000_S_d0 h_S_) main_v11 main_c_3
  let main_v13 : IVec S_ 1 := andi main_v8 main_v12
  main_v13
-- ==== Kernel.lean ====
abbrev S4x50000x64 : Shape := ⟨3, ![4, 50000, 64]⟩
abbrev S64x64 : Shape := ⟨2, ![64, 64]⟩
abbrev S850000 : Shape := ⟨1, ![850000]⟩
abbrev S_ : Shape := ⟨0, ![]⟩
abbrev S850000x1 : Shape := ⟨2, ![850000, 1]⟩
abbrev S4x850000x64 : Shape := ⟨3, ![4, 850000, 64]⟩
abbrev S1x850000x1 : Shape := ⟨3, ![1, 850000, 1]⟩
abbrev S50000x64 : Shape := ⟨2, ![50000, 64]⟩
abbrev S200000x64 : Shape := ⟨2, ![200000, 64]⟩
abbrev S8000x64 : Shape := ⟨2, ![8000, 64]⟩

abbrev nBuf : Space → Nat
  | .hbm => 26
  | .vmem => 5
  | .smem => 0
  | _ => 0

abbrev bufTy : (tb : Table) → Fin (tcTables nBuf tb) → BufTy
  | .hbm, ⟨0, _⟩ => ⟨S4x50000x64, .f32⟩
  | .hbm, ⟨1, _⟩ => ⟨S64x64, .f32⟩
  | .hbm, ⟨2, _⟩ => ⟨S850000, .i32⟩
  | .hbm, ⟨3, _⟩ => ⟨S850000, .i32⟩
  | .hbm, ⟨4, _⟩ => ⟨S850000, .f32⟩
  | .hbm, ⟨5, _⟩ => ⟨S_, .i32⟩
  | .hbm, ⟨6, _⟩ => ⟨S850000, .i32⟩
  | .hbm, ⟨7, _⟩ => ⟨S850000, .i1⟩
  | .hbm, ⟨8, _⟩ => ⟨S_, .i32⟩
  | .hbm, ⟨9, _⟩ => ⟨S850000, .i32⟩
  | .hbm, ⟨10, _⟩ => ⟨S850000, .i32⟩
  | .hbm, ⟨11, _⟩ => ⟨S850000, .i32⟩
  | .hbm, ⟨12, _⟩ => ⟨S850000x1, .i32⟩
  | .hbm, ⟨13, _⟩ => ⟨S4x850000x64, .f32⟩
  | .hbm, ⟨14, _⟩ => ⟨S850000x1, .f32⟩
  | .hbm, ⟨15, _⟩ => ⟨S1x850000x1, .f32⟩
  | .hbm, ⟨16, _⟩ => ⟨S4x850000x64, .f32⟩
  | .hbm, ⟨17, _⟩ => ⟨S4x850000x64, .f32⟩
  | .hbm, ⟨18, _⟩ => ⟨S_, .f32⟩
  | .hbm, ⟨19, _⟩ => ⟨S50000x64, .f32⟩
  | .hbm, ⟨20, _⟩ => ⟨S850000x1, .i32⟩
  | .hbm, ⟨21, _⟩ => ⟨S4x50000x64, .f32⟩
  | .hbm, ⟨22, _⟩ => ⟨S4x50000x64, .f32⟩
  | .hbm, ⟨23, _⟩ => ⟨S200000x64, .f32⟩
  | .hbm, ⟨24, _⟩ => ⟨S200000x64, .f32⟩
  | .hbm, ⟨25, _⟩ => ⟨S4x50000x64, .f32⟩
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S8000x64, .f32⟩
  | .local _ .vmem, ⟨4, _⟩ => ⟨S8000x64, .f32⟩
  | _, _ => ⟨S4x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S1x850000x1_1_2 : S850000x1.BroadcastsInDim S1x850000x1 (![1, 2] : Fin 2 → Fin S1x850000x1.rank)
  bcast_S1x850000x1_S4x850000x64_0_1_2 : S1x850000x1.BroadcastsInDim S4x850000x64 (![0, 1, 2] : Fin 3 → Fin S4x850000x64.rank)
  bcast_S_S50000x64 : S_.BroadcastsInDim S50000x64 (![] : Fin 0 → Fin S50000x64.rank)
  bcast_S50000x64_S4x50000x64_1_2 : S50000x64.BroadcastsInDim S4x50000x64 (![1, 2] : Fin 2 → Fin S4x50000x64.rank)
  shapeCasts_S4x50000x64_S200000x64 : S4x50000x64.ShapeCasts S200000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S200000x64_S4x50000x64 : S200000x64.ShapeCasts S4x50000x64
  gather_S4x50000x64_S850000x1_S4x850000x64_02_1_n_n_1_1_4164_wf : GatherDims.WF S4x50000x64 S850000x1 S4x850000x64 [0, 2] [1] [] [1] [] 1 ![4, 1, 64]
  scatter_S4x50000x64_S850000x1_S4x850000x64_02_1_1_1_wf : ScatterDims.WF S4x50000x64 S850000x1 S4x850000x64 [0, 2] [1] [1] 1
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S200000x64.size a
  hwx0_0 : ∀ i : grid0.Coords, EltTy.bits .f32 = 32 ∨ (Rect.block (s := S200000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S200000x64.size a
  hwx0_2 : ∀ i : grid0.Coords, EltTy.bits .f32 = 32 ∨ (Rect.block (s := S200000x64) S8000x64.size (cc0_transform_2 i) (hinb0_2 i)).WholeWords (EltTy.packing .f32)

variable [Facts₀]

def gather_S4x50000x64_S850000x1_S4x850000x64_02_1_n_n_1_1_4164 : GatherDims S4x50000x64 S850000x1 S4x850000x64 where
  offsetDims := [0, 2]
  collapsedSliceDims := [1]
  operandBatchingDims := []
  startIndicesBatchingDims := []
  startIndexMap := [1]
  indexVectorDim := 1
  sliceSizes := ![4, 1, 64]
  wf := gather_S4x50000x64_S850000x1_S4x850000x64_02_1_n_n_1_1_4164_wf
def scatter_S4x50000x64_S850000x1_S4x850000x64_02_1_1_1 : ScatterDims S4x50000x64 S850000x1 S4x850000x64 where
  updateWindowDims := [0, 2]
  insertedWindowDims := [1]
  scatterDimsToOperandDims := [1]
  indexVectorDim := 1
  wf := scatter_S4x50000x64_S850000x1_S4x850000x64_02_1_1_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_v15) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x50000x64 : Shape := ⟨3, ![4, 50000, 64]⟩
abbrev S64x64 : Shape := ⟨2, ![64, 64]⟩
abbrev S850000 : Shape := ⟨1, ![850000]⟩
abbrev S_ : Shape := ⟨0, ![]⟩
abbrev S850000x1 : Shape := ⟨2, ![850000, 1]⟩
abbrev S4x850000x64 : Shape := ⟨3, ![4, 850000, 64]⟩
abbrev S1x850000x1 : Shape := ⟨3, ![1, 850000, 1]⟩
abbrev S50000x64 : Shape := ⟨2, ![50000, 64]⟩

abbrev nBuf : Space → Nat
  | .hbm => 24
  | .vmem => 0
  | .smem => 0
  | _ => 0

abbrev bufTy : (tb : Table) → Fin (tcTables nBuf tb) → BufTy
  | .hbm, ⟨0, _⟩ => ⟨S4x50000x64, .f32⟩
  | .hbm, ⟨1, _⟩ => ⟨S64x64, .f32⟩
  | .hbm, ⟨2, _⟩ => ⟨S850000, .i32⟩
  | .hbm, ⟨3, _⟩ => ⟨S850000, .i32⟩
  | .hbm, ⟨4, _⟩ => ⟨S850000, .f32⟩
  | .hbm, ⟨5, _⟩ => ⟨S_, .i32⟩
  | .hbm, ⟨6, _⟩ => ⟨S850000, .i32⟩
  | .hbm, ⟨7, _⟩ => ⟨S850000, .i1⟩
  | .hbm, ⟨8, _⟩ => ⟨S_, .i32⟩
  | .hbm, ⟨9, _⟩ => ⟨S850000, .i32⟩
  | .hbm, ⟨10, _⟩ => ⟨S850000, .i32⟩
  | .hbm, ⟨11, _⟩ => ⟨S850000, .i32⟩
  | .hbm, ⟨12, _⟩ => ⟨S850000x1, .i32⟩
  | .hbm, ⟨13, _⟩ => ⟨S4x850000x64, .f32⟩
  | .hbm, ⟨14, _⟩ => ⟨S850000x1, .f32⟩
  | .hbm, ⟨15, _⟩ => ⟨S1x850000x1, .f32⟩
  | .hbm, ⟨16, _⟩ => ⟨S4x850000x64, .f32⟩
  | .hbm, ⟨17, _⟩ => ⟨S4x850000x64, .f32⟩
  | .hbm, ⟨18, _⟩ => ⟨S_, .f32⟩
  | .hbm, ⟨19, _⟩ => ⟨S50000x64, .f32⟩
  | .hbm, ⟨20, _⟩ => ⟨S850000x1, .i32⟩
  | .hbm, ⟨21, _⟩ => ⟨S4x50000x64, .f32⟩
  | .hbm, ⟨22, _⟩ => ⟨S4x50000x64, .f32⟩
  | .hbm, ⟨23, _⟩ => ⟨S4x50000x64, .f32⟩
  | _, _ => ⟨S4x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S1x850000x1_1_2 : S850000x1.BroadcastsInDim S1x850000x1 (![1, 2] : Fin 2 → Fin S1x850000x1.rank)
  bcast_S1x850000x1_S4x850000x64_0_1_2 : S1x850000x1.BroadcastsInDim S4x850000x64 (![0, 1, 2] : Fin 3 → Fin S4x850000x64.rank)
  bcast_S_S50000x64 : S_.BroadcastsInDim S50000x64 (![] : Fin 0 → Fin S50000x64.rank)
  bcast_S50000x64_S4x50000x64_1_2 : S50000x64.BroadcastsInDim S4x50000x64 (![1, 2] : Fin 2 → Fin S4x50000x64.rank)
  gather_S4x50000x64_S850000x1_S4x850000x64_02_1_n_n_1_1_4164_wf : GatherDims.WF S4x50000x64 S850000x1 S4x850000x64 [0, 2] [1] [] [1] [] 1 ![4, 1, 64]
  scatter_S4x50000x64_S850000x1_S4x850000x64_02_1_1_1_wf : ScatterDims.WF S4x50000x64 S850000x1 S4x850000x64 [0, 2] [1] [1] 1
  dot_S4x50000x64_S64x64_S4x50000x64_2_0_01_1_n_n_wf : DotDims.WF S4x50000x64 S64x64 S4x50000x64 [2] [0] [0, 1] [1] [] []

variable [Facts₀]

def gather_S4x50000x64_S850000x1_S4x850000x64_02_1_n_n_1_1_4164 : GatherDims S4x50000x64 S850000x1 S4x850000x64 where
  offsetDims := [0, 2]
  collapsedSliceDims := [1]
  operandBatchingDims := []
  startIndicesBatchingDims := []
  startIndexMap := [1]
  indexVectorDim := 1
  sliceSizes := ![4, 1, 64]
  wf := gather_S4x50000x64_S850000x1_S4x850000x64_02_1_n_n_1_1_4164_wf
def scatter_S4x50000x64_S850000x1_S4x850000x64_02_1_1_1 : ScatterDims S4x50000x64 S850000x1 S4x850000x64 where
  updateWindowDims := [0, 2]
  insertedWindowDims := [1]
  scatterDimsToOperandDims := [1]
  indexVectorDim := 1
  wf := scatter_S4x50000x64_S850000x1_S4x850000x64_02_1_1_1_wf
def dot_S4x50000x64_S64x64_S4x50000x64_2_0_01_1_n_n : DotDims S4x50000x64 S64x64 S4x50000x64 where
  lhsContracting := [2]
  rhsContracting := [0]
  lhsNonContracting := [0, 1]
  rhsNonContracting := [1]
  lhsBatch := []
  rhsBatch := []
  wf := dot_S4x50000x64_S64x64_S4x50000x64_2_0_01_1_n_n_wf

class Facts : Prop extends Facts₀ where

variable [Facts]
-- ==== Proof.DenseProduct.lean ====
/-
  The dense layer as plain mathematics, over the extended reals.

  A graph-convolution layer ends in a product with a 64 × 64 weight matrix. The aggregated features can be
  laid out in two ways: batched, as an array [4, 50000, 64] indexed (b, n, d), or flat, as 200000 rows of 64
  indexed (r, d) with r = 50000 · b + n (row-major order identifies the two). The product with the weights
  is, entry by entry, a sum of 64 products along the feature axis:

      flat:     out (r, o)    = ∑ k, y (r, k)    · w (k, o)
      batched:  out (b, n, o) = ∑ k, y (b, n, k) · w (k, o)

  Flattening the batched features, multiplying the rows, and un-flattening the result is the batched
  product: row-major order sends (b, n, d) to (50000 · b + n, d), and neither the contracted coordinate k
  nor the output column o is touched. No law of arithmetic is needed — the two sums have the same terms in
  the same order — so nothing here asks the entries to be finite.
-/
import Idealize.ShloMosaic.PureOps.Ideal
import Idealize.ShloMosaic.Lib.ValueIdx
import Idealize.ShloMosaic.Lib.Pipeline.Value

noncomputable section

namespace Cert.DenseLayer

open Idealize.ShloMosaic Idealize.ShloMosaic.ValueIdx

/-- 200000 rows of 64 features: the four batches of 50000 nodes one after another. -/
abbrev Flat : Shape := ⟨2, ![200000, 64]⟩
/-- Four batches of 50000 nodes of 64 features. -/
abbrev Batched : Shape := ⟨3, ![4, 50000, 64]⟩
/-- The weight matrix. -/
abbrev Weights : Shape := ⟨2, ![64, 64]⟩

/-- Rows times weights: entry (r, o) is the sum over the feature k of y (r, k) · w (k, o). -/
def rowsTimes (y : Flat.Idx → EReal) (w : Weights.Idx → EReal) : Flat.Idx → EReal :=
  fun j => ∑ k : Fin 64, y (ix2 (j 0) k) * w (ix2 k (j 1))

/-- The batched product: entry (b, n, o) is the sum over the feature k of y (b, n, k) · w (k, o). -/
def nodesTimes (y : Batched.Idx → EReal) (w : Weights.Idx → EReal) : Batched.Idx → EReal :=
  fun i => ∑ k : Fin 64, y (ix3 (i 0) (i 1) k) * w (ix2 k (i 2))

/-- Flatten, multiply the rows, un-flatten: the batched product. Row-major order sends (b, n, d) to
    (50000 · b + n, d); the product acts on the last coordinate alone. -/
theorem unflatten_rowsTimes_flatten (y : Batched.Idx → EReal) (w : Weights.Idx → EReal)
    (hflat : Batched.ShapeCasts Flat) (hback : Flat.ShapeCasts Batched) :
    shapeCast Batched (rowsTimes (shapeCast Flat y hflat) w) hback = nodesTimes y w := by
  funext i
  obtain ⟨b, n, o, rfl⟩ : ∃ (b : Fin 4) (n : Fin 50000) (o : Fin 64), i = ix3 b n o := ⟨i 0, i 1, i 2, eq_ix3 i⟩
  have hr : 50000 * b.val + n.val < 200000 := by have := b.isLt; have := n.isLt; omega
  rw [shapeCast_apply _ hback (ix3 b n o) (ix2 ⟨50000 * b.val + n.val, hr⟩ o) (by
    rw [Shape.rowMajor_val_two, Shape.rowMajor_val_three]
    show (50000 * b.val + n.val) * 64 + o.val = (b.val * 50000 + n.val) * 64 + o.val
    omega)]
  unfold rowsTimes nodesTimes
  refine Finset.sum_congr rfl fun k _ => ?_
  refine congrArg (· * w (ix2 k o)) ?_
  exact shapeCast_apply y hflat (ix2 ⟨50000 * b.val + n.val, hr⟩ k) (ix3 b n k) (by
    rw [Shape.rowMajor_val_two, Shape.rowMajor_val_three]
    show (b.val * 50000 + n.val) * 64 + k.val = (50000 * b.val + n.val) * 64 + k.val
    omega)

end Cert.DenseLayer

end
-- ==== Proof.BlockProduct.lean ====
/-
  One grid point's arithmetic, read at an index.

  The kernel body loads an 8000 × 64 block of rows and the 64 × 64 weights, narrows both to bf16 and
  multiplies them on the matrix unit into a zero accumulator. Over the extended reals a change of float
  format is the identity and zero plus a sum is the sum, so entry (p, q) of what the body stores is

      ∑ k, rows (p, k) · weights (k, q).

  If the block's row p is row r of a larger array and the weights are the weight array itself, that entry
  is entry (r, q) of the whole array's product with the weights: the contracted feature k and the output
  column q do not depend on where the block sits.
-/
import proofs.«143536_j65618510348365_1_alg».proof.Proof.Gen.KernelIdeal.Skeleton
import proofs.«143536_j65618510348365_1_alg».proof.Proof.DenseProduct
import Idealize.ShloMosaic.PureOps.Ideal.Laws
import Idealize.ShloMosaic.Lib.ValueIdx
import Idealize.ShloMosaic.Lib.Pipeline.Value

noncomputable section

namespace Cert.DenseLayer

open Idealize.ShloMosaic Idealize.ShloMosaic.ValueIdx Cert.KernelIdeal Cert.KernelIdeal.Gen

/-- The left operand's index of the block product at output (p, q) and feature k is (p, k). -/
theorem block_lhs_index (p : Fin 8000) (q k : Fin 64) :
    dot_S8000x64_S64x64_S8000x64_1_0_0_1_n_n.lhsIdx (ix2 p q)
        ((contrEquiv1 dot_S8000x64_S64x64_S8000x64_1_0_0_1_n_n 64 rfl rfl).symm k) = ix2 p k := by
  have hk := contrEquiv1_symm_val dot_S8000x64_S64x64_S8000x64_1_0_0_1_n_n 64 rfl rfl k
  funext a
  apply Fin.ext
  match a with
  | ⟨0, _⟩ =>
    show (dot_S8000x64_S64x64_S8000x64_1_0_0_1_n_n.lhsIdx (ix2 p q) _ 0).val = p.val
    unfold DotDims.lhsIdx
    rw [dif_neg (show ¬(0 : Fin S8000x64.rank) ∈ dot_S8000x64_S64x64_S8000x64_1_0_0_1_n_n.lhsBatch by decide),
      dif_pos (show (0 : Fin S8000x64.rank) ∈ dot_S8000x64_S64x64_S8000x64_1_0_0_1_n_n.lhsNonContracting by decide)]
    rfl
  | ⟨1, _⟩ =>
    exact (dot_S8000x64_S64x64_S8000x64_1_0_0_1_n_n.lhsIdx_val_of_single rfl (ix2 p q) _).trans hk

/-- The right operand's index of the block product at output (p, q) and feature k is (k, q). -/
theorem block_rhs_index (p : Fin 8000) (q k : Fin 64) :
    dot_S8000x64_S64x64_S8000x64_1_0_0_1_n_n.rhsIdx (ix2 p q)
        ((contrEquiv1 dot_S8000x64_S64x64_S8000x64_1_0_0_1_n_n 64 rfl rfl).symm k) = ix2 k q := by
  have hk := contrEquiv1_symm_val dot_S8000x64_S64x64_S8000x64_1_0_0_1_n_n 64 rfl rfl k
  funext a
  apply Fin.ext
  match a with
  | ⟨0, _⟩ =>
    exact (dot_S8000x64_S64x64_S8000x64_1_0_0_1_n_n.rhsIdx_val_of_single rfl (ix2 p q) _).trans hk
  | ⟨1, _⟩ =>
    show (dot_S8000x64_S64x64_S8000x64_1_0_0_1_n_n.rhsIdx (ix2 p q) _ 1).val = q.val
    unfold DotDims.rhsIdx
    rw [dif_neg (show ¬(1 : Fin S64x64.rank) ∈ dot_S8000x64_S64x64_S8000x64_1_0_0_1_n_n.rhsBatch by decide),
      dif_pos (show (1 : Fin S64x64.rank) ∈ dot_S8000x64_S64x64_S8000x64_1_0_0_1_n_n.rhsNonContracting by decide)]
    rfl

/-- Entry (p, q) of what the body stores: the sum over the feature k of rows (p, k) · weights (k, q). -/
theorem stored_entry (x0 : Vec Ideal S8000x64 .f32) (x1 : Vec Ideal S64x64 .f32) (p : Fin 8000) (q : Fin 64) :
    k0_pay1 (F := Ideal) x0 x1 (ix2 p q) = ∑ k : Fin 64, x0 (ix2 p k) * x1 (ix2 k q) := by
  unfold k0_pay1
  refine (Ideal.matmul_constant_zero_apply dot_S8000x64_S64x64_S8000x64_1_0_0_1_n_n none _ _ (ix2 p q)).trans ?_
  rw [← Equiv.sum_comp (contrEquiv1 dot_S8000x64_S64x64_S8000x64_1_0_0_1_n_n 64 rfl rfl).symm]
  refine Finset.sum_congr rfl fun k _ => ?_
  rw [block_lhs_index p q k, block_rhs_index p q k]
  show shapeCast S8000x64 x0 shapeCasts_S8000x64_S8000x64 (ix2 p k) * x1 (ix2 k q) = _
  rw [shapeCast_self]

/-- A stored entry as an entry of a whole array's product with the weights: if the block's row through y is
    the array's row through i, feature by feature, and the loaded weights are the weight array along
    column y 1 = i 1, then what the body stores at y is the array's rows times the weights at i. -/
theorem stored_entry_of_rows (x0 : Vec Ideal S8000x64 .f32) (x1 : Vec Ideal S64x64 .f32)
    (A : Flat.Idx → EReal) (W : Weights.Idx → EReal) (y : S8000x64.Idx) (i : Flat.Idx)
    (hrow : ∀ k : Fin 64, x0 (ix2 (y 0) k) = A (ix2 (i 0) k))
    (hcol : ∀ k : Fin 64, x1 (ix2 k (y 1)) = W (ix2 k (i 1))) :
    k0_pay1 (F := Ideal) x0 x1 y = rowsTimes A W i := by
  refine (congrArg (k0_pay1 (F := Ideal) x0 x1) (eq_ix2 y)).trans ?_
  refine (stored_entry x0 x1 (y 0) (y 1)).trans ?_
  unfold rowsTimes
  exact Finset.sum_congr rfl fun k _ => by rw [hrow k, hcol k]

end Cert.DenseLayer

end
-- ==== Proof.Aggregated.lean ====
/-
  What the region is handed.

  Before the product, the program aggregates the node features over the graph's edges: each edge (row, col)
  with value a contributes a · x[b, col, :] to node row of batch b (a gather of the source rows, a scaling by
  the edge values, a scatter-add into an array of zeros). The result, an array [4, 50000, 64], is then
  flattened to 200000 rows of 64, and it is this flat array that the rows of the product are read from.

  The aggregation is the same text in the kernel's program and in the reference, so nothing below looks
  inside it: it is carried as ONE function `aggregated` of the argument arrays, and the only fact recorded
  is that the region's first operand is its flattening (and the second the weights as launched).
-/
import proofs.«143536_j65618510348365_1_alg».proof.Proof.Gen.KernelIdeal.Frame
import Idealize.ShloMosaic.Lib.StableHlo.Run
import Idealize.ShloMosaic.PureOps.Ideal

noncomputable section

namespace Cert.DenseLayer

open Idealize.ShloMosaic Idealize.ShloMosaic.TcCoe Idealize.SL.Sem Cert.KernelIdeal Cert.KernelIdeal.Gen

/-- The aggregated features A_hat · x, batch by batch, as a function of the features x, the edges' rows and
    columns and the edge values: gather the source nodes' rows (a negative column index first wrapped by the
    node count), scale each by its edge value, and add each into its target node's row of a zero array. -/
def aggregated (x : FVec Ideal S4x50000x64 .f32) (rows cols : IVec S850000 32) (vals : FVec Ideal S850000 .f32) :
    FVec Ideal S4x50000x64 .f32 :=
  Host.scatterAdd scatter_S4x50000x64_S850000x1_S4x850000x64_02_1_1_1
    (broadcastInDim S4x50000x64 ![1, 2] bcast_S50000x64_S4x50000x64_1_2
      (broadcastInDim S50000x64 ![] bcast_S_S50000x64 (constant (F := Ideal) S_ .f32 0x00000000#32)))
    (broadcastInDim S850000x1 ![0] bcast_S850000_S850000x1_0 rows)
    (mulf
      (Host.gather gather_S4x50000x64_S850000x1_S4x850000x64_02_1_n_n_1_1_4164 x
        (broadcastInDim S850000x1 ![0] bcast_S850000_S850000x1_0
          (select (cmpi .slt cols (broadcastInDim S850000 ![] bcast_S_S850000 (constantI S_ 32 0#32)))
            (addi cols (broadcastInDim S850000 ![] bcast_S_S850000 (constantI S_ 32 50000#32))) cols)))
      (broadcastInDim S4x850000x64 ![0, 1, 2] bcast_S1x850000x1_S4x850000x64_0_1_2
        (broadcastInDim S1x850000x1 ![1, 2] bcast_S850000x1_S1x850000x1_1_2
          (broadcastInDim S850000x1 ![0] bcast_S850000_S850000x1_0 vals))))

variable (m : (ℓ : Loc nD τ sig) → Buf (Elt Ideal) ℓ)

/-- The region's first operand is the flattening of the aggregated features of the launch arguments. -/
theorem region_rows (c : Dev nD) :
    (V m c main_v15 : S200000x64.Idx → EReal)
      = shapeCast S200000x64
          (aggregated (m ((c : Thread nD τ).loc main_arg0)) (m ((c : Thread nD τ).loc main_arg2))
            (m ((c : Thread nD τ).loc main_arg3)) (m ((c : Thread nD τ).loc main_arg4)))
          shapeCasts_S4x50000x64_S200000x64 := by
  show StableHlo.after hostOps0 (fun b => m (c, b)) (Proc.devRef .tc main_v15) = _
  after_results
  rfl

end Cert.DenseLayer

end
-- ==== Proof.ProductArray.lean ====
/-
  The kernel's result array.

  The region walks the 200000 rows in 25 blocks of 8000: at grid point t it loads rows 8000·t … 8000·t + 7999
  of its first operand and the whole weight matrix, and writes back the block's product with the weights to
  the same rows of its output. So

    * what point t writes back is block t of ONE array, the first operand's rows times the weights
      (a block's entry (p, q) is the array's entry (8000·t + p, q), and the weights' block is the whole
      matrix);
    * every row r lies in the block of point r / 8000, so the blocks cover the output;
    * hence the output array ends as the rows times the weights, and the one operation after the region
      un-flattens it to [4, 50000, 64].

  With the first operand the flattened aggregation, the result is the batched product of the aggregated
  features with the weights.
-/
import proofs.«143536_j65618510348365_1_alg».proof.Proof.Gen.KernelIdeal.Frame
import proofs.«143536_j65618510348365_1_alg».proof.Proof.BlockProduct
import proofs.«143536_j65618510348365_1_alg».proof.Proof.Aggregated
import Idealize.ShloMosaic.Lib.Pipeline.Value
import Idealize.ShloMosaic.Lib.StableHlo.Run

set_option maxRecDepth 16384

noncomputable section

namespace Cert.DenseLayer

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- Where the blocks sit: at point t the rows' block and the output's block are the t-th of their arrays
    and span all 64 columns; the weights' block is the whole matrix. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Reading any flat array through the rows' window at point t: the block's row p is the array's row
    8000·t + p, column for column. -/
theorem rows_view_read (t : Fin cfg0.N) (A : S200000x64.Idx → EReal) (x : S8000x64.Idx) (i : S200000x64.Idx)
    (h0 : (i 0).val = 8000 * t.val + (x 0).val) (h1 : (i 1).val = (x 1).val) :
    (((cfg0.win 0).blk t).view.read (Elt Ideal) A : Vec Ideal S8000x64 .f32) x = A i := by
  obtain ⟨e0, e1, -, -, -, -⟩ := block_positions t
  rw [View.read_apply]
  show A _ = A i
  refine congrArg A ?_
  funext a
  apply Fin.ext
  match a with
  | ⟨0, _⟩ => show win0_0.index t 0 * 8000 + 1 * (x 0).val = (i 0).val; omega
  | ⟨1, _⟩ => show win0_0.index t 1 * 64 + 1 * (x 1).val = (i 1).val; omega

/-- The rows' block at point t, entry by entry: its row p is row 8000·t + p of the first operand. -/
theorem rows_block_apply (c : Dev nD) (t : Fin cfg0.N) (x : S8000x64.Idx) (i : S200000x64.Idx)
    (h0 : (i 0).val = 8000 * t.val + (x 0).val) (h1 : (i 1).val = (x 1).val) :
    (iblk m c 0 t : Vec Ideal S8000x64 .f32) x = (V m c main_v15 : S200000x64.Idx → EReal) i :=
  rows_view_read t (V m c main_v15) x i h0 h1

/-- Reading any 64 × 64 array through the weights' window: at every point the block is the whole matrix. -/
theorem weights_view_read (t : Fin cfg0.N) (A : S64x64.Idx → EReal) (z i : S64x64.Idx)
    (h0 : (i 0).val = (z 0).val) (h1 : (i 1).val = (z 1).val) :
    (((cfg0.win 1).blk t).view.read (Elt Ideal) A : Vec Ideal S64x64 .f32) z = A i := by
  obtain ⟨-, -, e2, e3, -, -⟩ := block_positions t
  rw [View.read_apply]
  show A _ = A i
  refine congrArg A ?_
  funext a
  apply Fin.ext
  match a with
  | ⟨0, _⟩ => show win0_1.index t 0 * 64 + 1 * (z 0).val = (i 0).val; omega
  | ⟨1, _⟩ => show win0_1.index t 1 * 64 + 1 * (z 1).val = (i 1).val; omega

/-- The weights' block at any point is the whole weight matrix. -/
theorem weights_block_apply (c : Dev nD) (t : Fin cfg0.N) (z i : S64x64.Idx)
    (h0 : (i 0).val = (z 0).val) (h1 : (i 1).val = (z 1).val) :
    (iblk m c 1 t : Vec Ideal S64x64 .f32) z = (V m c main_arg1 : S64x64.Idx → EReal) i :=
  weights_view_read t (V m c main_arg1) z i h0 h1

/-- Reading any flat array through the output's window at point t is reading it at the block's indices. -/
theorem output_view_read (t : Fin cfg0.N) (G : S200000x64.Idx → EReal)
    (j : ((cfg0.win 2).xblock (cfg0.grid.coords t)).Idx) :
    ((cfg0.win 2).blk t).view.read (Elt Ideal) G j = G (((cfg0.win 2).blk t).view.emb j) := by
  rw [View.read_apply]
  rfl

/-- What point t writes back is block t of the first operand's rows times the weights. -/
theorem written_back (c : Dev nD) (t : Fin cfg0.N) :
    (dats m 0 c).flushed 2 t
      = ((cfg0.win 2).blk t).view.read (Elt Ideal) (rowsTimes (V m c main_v15) (V m c main_arg1)) := by
  show (cfg0.win 2).cut (grid0.coords t) ((dats m 0 c).after 2 t) = _
  rw [after0_2]
  unfold out0_2
  rw [View.canon_unit_zero origin_zero]
  simp only [View.ld_unit_zero (S := S8000x64) origin_zero, View.ld_unit_zero (S := S64x64) origin_zero]
  obtain ⟨-, -, -, -, e4, e5⟩ := block_positions t
  funext j
  refine Eq.trans ?_ (output_view_read t (rowsTimes (V m c main_v15) (V m c main_arg1)) j).symm
  refine stored_entry_of_rows (iblk m c 0 t) (iblk m c 1 t) (V m c main_v15) (V m c main_arg1)
    ((win0 2).xinj (grid0.coords t) j) (((cfg0.win 2).blk t).view.emb j) (fun k => ?_) (fun k => ?_)
  · refine rows_block_apply m c t _ _ ?_ rfl
    show win0_2.index t 0 * 8000 + 1 * (j 0).val = 8000 * t.val + (j 0).val
    omega
  · refine weights_block_apply m c t _ _ rfl ?_
    show win0_2.index t 1 * 64 + 1 * (j 1).val = (j 1).val
    omega

/-- An index of the output array is in point t's block iff each coordinate is in the block's range. -/
theorem mem_block (t : Fin cfg0.N) (i : S200000x64.Idx) :
    i ∈ ((cfg0.win 2).blk t).view.set ↔ ∀ a : Fin 2, win0_2.index t a * S8000x64.size a ≤ (i a).val
      ∧ (i a).val < win0_2.index t a * S8000x64.size a + S8000x64.size a := by
  show i ∈ ((View.whole main_v16).slice (win0_2.rect t)).set ↔ _
  rw [View.set_slice_whole, Rect.mem_set_unit]
  exact Iff.rfl

/-- Row r is written back by point r / 8000: the 25 blocks cover the output. -/
theorem blocks_cover (i : S200000x64.Idx) :
    ∃ t : Fin cfg0.N, (cfg0.win 2).flush t = true ∧ i ∈ ((cfg0.win 2).blk t).view.set := by
  have hi0 : (i 0).val < 200000 := idx2_lt0 i
  have hi1 : (i 1).val < 64 := idx2_lt1 i
  have hN : cfg0.N = 25 := N_0
  have ht : (i 0).val / 8000 < cfg0.N := by rw [hN]; omega
  obtain ⟨e0, e1, e2, e3, e4, e5⟩ := block_positions ⟨(i 0).val / 8000, ht⟩
  refine ⟨⟨(i 0).val / 8000, ht⟩, flush0_2 _, ?_⟩
  rw [mem_block]
  intro a
  match a with
  | ⟨0, _⟩ =>
    show win0_2.index ⟨(i 0).val / 8000, ht⟩ (0 : Fin 2) * 8000 ≤ (i 0).val
      ∧ (i 0).val < win0_2.index ⟨(i 0).val / 8000, ht⟩ (0 : Fin 2) * 8000 + 8000
    have e4' : win0_2.index ⟨(i 0).val / 8000, ht⟩ (0 : Fin 2) = (i 0).val / 8000 := e4
    omega
  | ⟨1, _⟩ =>
    show win0_2.index ⟨(i 0).val / 8000, ht⟩ (1 : Fin 2) * 64 ≤ (i 1).val
      ∧ (i 1).val < win0_2.index ⟨(i 0).val / 8000, ht⟩ (1 : Fin 2) * 64 + 64
    omega

/-- The output array after the region: the first operand's rows times the weights. -/
theorem region_output (c : Dev nD) :
    (dats m 0 c).arrAt 2 cfg0.N = rowsTimes (V m c main_v15) (V m c main_arg1) :=
  (dats m 0 c).arrAt_eq_of_cover 2 _ (fun t _ => written_back m c t) blocks_cover

/-- The program's result: the region's output un-flattened. -/
theorem result_unflattened (c : Dev nD) :
    Pipeline.afterTail₀ cfgs (dats m) 0 (V0 m) [hostOps1] c main_v17
      = shapeCast S4x50000x64 ((dats m 0 c).arrAt 2 cfg0.N) shapeCasts_S200000x64_S4x50000x64 := by
  unfold Pipeline.afterTail₀
  show StableHlo.after hostOps1 _ (Proc.devRef .tc main_v17) = _
  after_results
  funext i
  show shapeCast S4x50000x64
      (Pipeline.withArrays spec0 c (V0 m c) (fun w => (dats m 0 c).arrAt w cfg0.N) (Proc.devRef .tc (Pipeline.arrRef spec0 2)))
      shapeCasts_S200000x64_S4x50000x64 i = _
  rw [Pipeline.withArrays_arr spec0 launch0.win.arr_inj c (V0 m c) (fun w => (dats m 0 c).arrAt w cfg0.N) 2]

/-- The program's result, as a function of the launch arguments: the batched product of the aggregated
    features with the weights. -/
theorem result_value (c : Dev nD) :
    Pipeline.afterTail₀ cfgs (dats m) 0 (V0 m) [hostOps1] c main_v17
      = nodesTimes
          (aggregated (m ((c : Thread nD τ).loc main_arg0)) (m ((c : Thread nD τ).loc main_arg2))
            (m ((c : Thread nD τ).loc main_arg3)) (m ((c : Thread nD τ).loc main_arg4)))
          (m ((c : Thread nD τ).loc main_arg1)) := by
  rw [result_unflattened, region_output, region_rows, V_main_arg1]
  exact unflatten_rowsTimes_flatten _ _ _ _

/-- The kernel program's run: every weakly fair execution ends with the result at the batched product of the
    aggregated features with the weights, and the argument arrays as launched. -/
theorem kernel_run : θ_run defs (onTc (τ := τ) (main (F := Ideal))) ⟨m, fun _ => 0, ρ⟩ fun r => ∀ c : Dev nD,
      r.2.mem ((c.tc : Thread nD τ).loc main_v17)
        = nodesTimes
            (aggregated (m ((c : Thread nD τ).loc main_arg0)) (m ((c : Thread nD τ).loc main_arg2))
              (m ((c : Thread nD τ).loc main_arg3)) (m ((c : Thread nD τ).loc main_arg4)))
            (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v17 (Pipeline.mem_restRefs_of main_v17 (by decide) (by decide))).trans (result_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.DenseLayer

end
-- ==== Proof.ReferenceProduct.lean ====
/-
  The reference's last operation, read at an index.

  The reference multiplies the aggregated features [4, 50000, 64] by the weights with one contraction of
  the feature axis (an einsum 'bnd,do->bno'). Over the extended reals its entry (b, n, o) is the sum over
  the feature k of y (b, n, k) · w (k, o): the batched product.
-/
import proofs.«143536_j65618510348365_1_alg».proof.Proof.Gen.ReferenceIdeal.Read
import proofs.«143536_j65618510348365_1_alg».proof.Proof.DenseProduct

noncomputable section

namespace Cert.DenseLayer

open Idealize.ShloMosaic Idealize.ShloMosaic.ValueIdx Cert.ReferenceIdeal Cert.ReferenceIdeal.Read

/-- The reference's result is the batched product of ITS aggregated features with the weights. -/
theorem reference_product (x0 : FVec Ideal S4x50000x64 .f32) (x1 : FVec Ideal S64x64 .f32)
    (x2 x3 : IVec S850000 32) (x4 : FVec Ideal S850000 .f32) :
    val_main_v15 (F := Ideal) x0 x1 x2 x3 x4 = nodesTimes (val_main_v14 (F := Ideal) x0 x2 x3 x4) x1 := by
  funext i
  rw [val_main_v15_apply]
  unfold nodesTimes
  refine Finset.sum_congr rfl fun k _ => ?_
  have el : lidx_main_v15 i k = ix3 (i 0) (i 1) k :=
    funext fun a => Fin.ext (by match a with | ⟨0, _⟩ => rfl | ⟨1, _⟩ => rfl | ⟨2, _⟩ => rfl)
  have er : ridx_main_v15 i k = ix2 k (i 2) :=
    funext fun a => Fin.ext (by match a with | ⟨0, _⟩ => rfl | ⟨1, _⟩ => rfl)
  rw [el, er]
  rfl

end Cert.DenseLayer

end
-- ==== Proof.SharedAggregation.lean ====
/-
  The two programs aggregate alike.

  The reference computes the aggregated features with the same operations, on the same operands, in the
  same order as the kernel's program does before its region (gather, scale, scatter-add into zeros; the same
  index wrap-around and the same constants). Only the names of the two programs' shape and dimension
  records differ, so the reference's aggregation IS the function `aggregated`.
-/
import proofs.«143536_j65618510348365_1_alg».proof.Proof.Aggregated
import proofs.«143536_j65618510348365_1_alg».proof.Proof.Gen.ReferenceIdeal.Read

noncomputable section

namespace Cert.DenseLayer

open Idealize.ShloMosaic

/-- The reference's aggregated features are the kernel program's, as functions of the arguments. -/
theorem reference_aggregated (x0 : FVec Ideal Cert.KernelIdeal.S4x50000x64 .f32)
    (x2 x3 : IVec Cert.KernelIdeal.S850000 32) (x4 : FVec Ideal Cert.KernelIdeal.S850000 .f32) :
    Cert.ReferenceIdeal.Read.val_main_v14 (F := Ideal) x0 x2 x3 x4 = aggregated x0 x2 x3 x4 := rfl

end Cert.DenseLayer

end
-- ==== Proof.lean ====
/-
  A graph-convolution layer, out[b] = (A_hat · x[b]) · W, computed two ways and shown equal over the
  extended reals.

  Both programs first aggregate the node features over the edges (gather the source rows, scale by the edge
  values, scatter-add into zeros) — the same operations on the same operands, carried here as one function
  `aggregated` and never opened. They differ only in the last step:

    * the kernel's program flattens the aggregated features to 200000 rows of 64, multiplies them by the
      64 × 64 weights 8000 rows at a time (each block narrowed to bf16 and multiplied into a zero
      accumulator), and un-flattens the product;
    * the reference contracts the feature axis of the [4, 50000, 64] array with the weights in one step.

  Over the extended reals a change of float format is the identity and a product into a zero accumulator
  is the plain sum, so entry (b, n, o) of either result is ∑ k, y (b, n, k) · w (k, o) with y the aggregated
  features: the blocks tile the rows, row-major order sends (b, n) to row 50000 · b + n, and the sum runs over
  the same 64 terms in the same order. No rearrangement of a sum and no distributive law is used, so the
  finiteness of the inputs is never needed.

  The three frames are the programs' generated runs; the idealization rewrote no operation, so there is
  nothing to preserve beyond the program's own text.
-/
import proofs.«143536_j65618510348365_1_alg».proof.Defs
import proofs.«143536_j65618510348365_1_alg».proof.Proof.Gen.Kernel
import proofs.«143536_j65618510348365_1_alg».proof.Proof.Gen.Kernel.Skeleton
import proofs.«143536_j65618510348365_1_alg».proof.Proof.Gen.Kernel.Launch
import proofs.«143536_j65618510348365_1_alg».proof.Proof.Gen.Kernel.Points
import proofs.«143536_j65618510348365_1_alg».proof.Proof.Gen.Kernel.Frame
import proofs.«143536_j65618510348365_1_alg».proof.Proof.Gen.KernelIdeal
import proofs.«143536_j65618510348365_1_alg».proof.Proof.Gen.KernelIdeal.Skeleton
import proofs.«143536_j65618510348365_1_alg».proof.Proof.Gen.KernelIdeal.Launch
import proofs.«143536_j65618510348365_1_alg».proof.Proof.Gen.KernelIdeal.Points
import proofs.«143536_j65618510348365_1_alg».proof.Proof.Gen.KernelIdeal.Frame
import proofs.«143536_j65618510348365_1_alg».proof.Proof.Gen.ReferenceIdeal
import proofs.«143536_j65618510348365_1_alg».proof.Proof.Gen.Pre_finite_inputs
import proofs.«143536_j65618510348365_1_alg».proof.Proof.Gen.ReferenceIdeal.Run
import proofs.«143536_j65618510348365_1_alg».proof.Proof.Gen.ReferenceIdeal.Read
import proofs.«143536_j65618510348365_1_alg».proof.Proof.ProductArray
import proofs.«143536_j65618510348365_1_alg».proof.Proof.ReferenceProduct
import proofs.«143536_j65618510348365_1_alg».proof.Proof.SharedAggregation
import Idealize.ShloMosaic.Adequacy
import Idealize.ShloMosaic.Init

noncomputable section

namespace Cert.Proof

open Idealize.ShloMosaic Idealize.SL.Sem

/-- The reference's result term is the batched product of the aggregated features with the weights: its last
    operation is that product of ITS aggregation, and its aggregation is the kernel program's. -/
theorem reference_value (x0 : FVec Ideal Cert.KernelIdeal.S4x50000x64 .f32) (x1 : FVec Ideal Cert.KernelIdeal.S64x64 .f32)
    (x2 x3 : IVec Cert.KernelIdeal.S850000 32) (x4 : FVec Ideal Cert.KernelIdeal.S850000 .f32) :
    Cert.ReferenceIdeal.Read.val_main_v15 (F := Ideal) x0 x1 x2 x3 x4
      = Cert.DenseLayer.nodesTimes (Cert.DenseLayer.aggregated x0 x2 x3 x4) x1 :=
  (Cert.DenseLayer.reference_product x0 x1 x2 x3 x4).trans
    (congrArg (fun y => Cert.DenseLayer.nodesTimes y x1) (Cert.DenseLayer.reference_aggregated x0 x2 x3 x4))

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the batched product of the aggregated
    features with the weights. -/
theorem algebraic : Cert.algebraic_KernelIdeal_ReferenceIdeal := by
  intro m ρ m' ρ' _ hagree
  refine ⟨_, Cert.DenseLayer.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v15_eq _ _ _ _ _).trans (reference_value _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
